-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x256 .f32) (main_arg1 : FVec F S800000 .f32) (main_arg2 : FVec F S256x128 .f32) (main_arg3 : FVec F S128 .f32) (main_arg4 : IVec S800000 32) (main_arg5 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S2000x256 : Shape := ⟨2, ![2000, 256]⟩
abbrev S2000x1 : Shape := ⟨2, ![2000, 1]⟩
abbrev S2000x128 : Shape := ⟨2, ![2000, 128]⟩
abbrev S800000x128 : Shape := ⟨2, ![800000, 128]⟩
abbrev S1x128 : Shape := ⟨2, ![1, 128]⟩

abbrev nBuf : Space → Nat
  | .hbm => 45
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S800000, .f32⟩
  | .hbm, ⟨2, _⟩ => ⟨S256x128, .f32⟩
  | .hbm, ⟨3, _⟩ => ⟨S128, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S256x128, .bf16⟩
  | .hbm, ⟨23, _⟩ => ⟨S50000x1, .f32⟩
  | .hbm, ⟨24, _⟩ => ⟨S50000x128, .bf16⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .bf16⟩
  | .hbm, ⟨34, _⟩ => ⟨S800000x128, .f32⟩
  | .hbm, ⟨35, _⟩ => ⟨S800000x1, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x1, .f32⟩
  | .hbm, ⟨43, _⟩ => ⟨S1x128, .f32⟩
  | .hbm, ⟨44, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x128, .bf16⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bitsLt_bf16_f32 : FTy.bits .bf16 < FTy.bits .f32
  shapeCasts_S50000_S50000x1 : S50000.ShapeCasts S50000x1
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .f32⟩
  | .hbm, ⟨2, _⟩ => ⟨S256x128, .f32⟩
  | .hbm, ⟨3, _⟩ => ⟨S128, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x256, .f32⟩
  | .hbm, ⟨25, _⟩ => ⟨S50000x256, .f32⟩
  | .hbm, ⟨26, _⟩ => ⟨S50000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x1, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run with its result array NAMED. @main is four segments: the host operations that
  compute the two degree vectors, the bf16 weight and the [N,1] column of out-degrees; the projection region
  (25 blocks of 2000 rows); the host operations that gather the projected rows along the edges, weight them and
  sum them into their destination rows; the normalising region (25 blocks of 2000 rows). Every unscoped buffer
  ends at the last boundary's contents, so the result buffer ends at those contents too: the same launch over the
  same segments as the frame, with the result buffer read beside the six arguments.
-/
import proofs.«141615_j66383014527134_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents
    the last segment boundary gives it and the six argument arrays as launched. -/
theorem run_result : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Whole

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.Payloads.lean ====
/-
  The two kernel bodies read at an entry of their block, on the extended reals.

  The projection body takes a block of 2000 rows of x, the matching 2000 out-degrees (a column) and the whole
  weight matrix; it scales row p of x by 1/sqrt(deg p) and multiplies by the weights into a zero accumulator.  Its entry
  (p, q) is therefore the sum over the 256 input features k of (x(p,k) · rsqrt(deg p)) · W(k,q): the two changes of
  float format are the identity on the extended reals and the zero accumulator adds nothing.

  The normalising body takes a block of 2000 aggregated rows, the matching 2000 in-degrees (a column) and the bias
  row; its entry (p, q) is agg(p,q) · rsqrt(deg p) + b(q).
-/
import proofs.«141615_j66383014527134_1_alg».proof.Proof.Gen.KernelIdeal.Skeleton
import proofs.«141615_j66383014527134_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blockwise

open Cert.KernelIdeal Cert.KernelIdeal.Gen Idealize.ShloMosaic Idealize.ShloMosaic.ValueIdx

/-- The left operand's row coordinate at an output entry is the entry's row. -/
theorem project_lhs_row (i : S2000x128.Idx) (κ : dot_S2000x256_S256x128_S2000x128_1_0_0_1_n_n.contr.Idx) : (dot_S2000x256_S256x128_S2000x128_1_0_0_1_n_n.lhsIdx i κ 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl

/-- The right operand's column coordinate at an output entry is the entry's column. -/
theorem project_rhs_col (i : S2000x128.Idx) (κ : dot_S2000x256_S256x128_S2000x128_1_0_0_1_n_n.contr.Idx) : (dot_S2000x256_S256x128_S2000x128_1_0_0_1_n_n.rhsIdx i κ 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The left operand's index of the block product at output entry (p, q) and contracted feature k is (p, k). -/
theorem project_lhsIdx (p : Fin 2000) (q : Fin 128) (k : Fin 256) :
    dot_S2000x256_S256x128_S2000x128_1_0_0_1_n_n.lhsIdx (ix2 p q) ((contrEquiv1 dot_S2000x256_S256x128_S2000x128_1_0_0_1_n_n 256 rfl rfl).symm k) = (ix2 p k : S2000x256.Idx) := by
  have hk := contrEquiv1_symm_val dot_S2000x256_S256x128_S2000x128_1_0_0_1_n_n 256 rfl rfl k
  refine funext fun a => Fin.ext ?_
  match a with
  | ⟨0, _⟩ => exact project_lhs_row _ _
  | ⟨1, _⟩ => exact (dot_S2000x256_S256x128_S2000x128_1_0_0_1_n_n.lhsIdx_val_of_single rfl _ _).trans hk

/-- The right operand's index there is (k, q). -/
theorem project_rhsIdx (p : Fin 2000) (q : Fin 128) (k : Fin 256) :
    dot_S2000x256_S256x128_S2000x128_1_0_0_1_n_n.rhsIdx (ix2 p q) ((contrEquiv1 dot_S2000x256_S256x128_S2000x128_1_0_0_1_n_n 256 rfl rfl).symm k) = (ix2 k q : S256x128.Idx) := by
  have hk := contrEquiv1_symm_val dot_S2000x256_S256x128_S2000x128_1_0_0_1_n_n 256 rfl rfl k
  refine funext fun a => Fin.ext ?_
  match a with
  | ⟨0, _⟩ => exact (dot_S2000x256_S256x128_S2000x128_1_0_0_1_n_n.rhsIdx_val_of_single rfl _ _).trans hk
  | ⟨1, _⟩ => exact project_rhs_col _ _

/-- Entry (p, q) of the projection body's block: the sum over the input features of the scaled row times the weights. -/
theorem project_block_apply (x0 : Vec Ideal S2000x256 .f32) (x1 : Vec Ideal S2000x1 .f32) (x2 : Vec Ideal S256x128 .bf16)
    (p : Fin 2000) (q : Fin 128) :
    k0_pay1 (F := Ideal) x0 x1 x2 (ix2 p q)
      = ∑ k : Fin 256, (x0 (ix2 p k) * Ideal.rsqrt (x1 (ix2 p (0 : Fin 1)))) * x2 (ix2 k q) := by
  unfold k0_pay1
  refine (Ideal.matmul_constant_zero_apply dot_S2000x256_S256x128_S2000x128_1_0_0_1_n_n none _ _ (ix2 p q)).trans ?_
  rw [← Equiv.sum_comp (contrEquiv1 dot_S2000x256_S256x128_S2000x128_1_0_0_1_n_n 256 rfl rfl).symm]
  refine Finset.sum_congr rfl fun k _ => ?_
  rw [project_lhsIdx, project_rhsIdx, shapeCast_self, shapeCast_self]
  show (x0 (ix2 p k) * broadcastTo S2000x256 (rsqrt (F := Ideal) x1) broadcasts_S2000x1_S2000x256 (ix2 p k)) * x2 (ix2 k q) = _
  rw [broadcastTo_a1_ab_apply]
  rfl

/-- Entry (p, q) of the normalising body's block: the aggregated entry scaled by its row's rsqrt in-degree, plus the bias. -/
theorem norm_block_apply (x0 : Vec Ideal S2000x128 .f32) (x1 : Vec Ideal S2000x1 .f32) (x2 : Vec Ideal S1x128 .f32)
    (p : Fin 2000) (q : Fin 128) :
    k1_pay1 (F := Ideal) x0 x1 x2 (ix2 p q)
      = x0 (ix2 p q) * Ideal.rsqrt (x1 (ix2 p (0 : Fin 1))) + x2 (ix2 (0 : Fin 1) q) := by
  unfold k1_pay1
  rw [shapeCast_self, shapeCast_self, shapeCast_self]
  show x0 (ix2 p q) * broadcastTo S2000x128 (rsqrt (F := Ideal) x1) broadcasts_S2000x1_S2000x128 (ix2 p q)
      + broadcastTo S2000x128 x2 broadcasts_S1x128_S2000x128 (ix2 p q) = _
  rw [broadcastTo_a1_ab_apply, broadcastTo_1b_ab_apply]
  rfl

end Cert.KernelIdeal.Blockwise

end
-- ==== Proof.Blocks.lean ====
/-
  From blocks to whole arrays, for both regions, at ANY contents the region is entered with.

  Both grids have 25 points; point t handles rows 2000·t … 2000·t + 1999.  In the projection region the x block and the
  degree column move with t, the weights are one block, and the output block is rows 2000·t … of the [50000, 128]
  result: so what point t writes back is block t of ONE whole-array function ('projected'), and since the 25 blocks
  tile the 50000 rows the array ends holding that function.  The normalising region is the same picture with the
  aggregated rows, the in-degree column and the one bias row ('normalised').
-/
import proofs.«141615_j66383014527134_1_alg».proof.Proof.Gen.KernelIdeal.Frame
import proofs.«141615_j66383014527134_1_alg».proof.Proof.Payloads

set_option maxRecDepth 16384

noncomputable section

namespace Cert.KernelIdeal.Blockwise

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The projection as one function of the three arrays the region reads: row i₀ of x scaled by the rsqrt of its
    out-degree, times the weights. -/
def projected (x : S50000x256.Idx → EReal) (d : S50000x1.Idx → EReal) (w : S256x128.Idx → EReal) : S50000x128.Idx → EReal :=
  fun i => ∑ k : Fin 256, (x (ix2 (i 0) k) * Ideal.rsqrt (d (ix2 (i 0) (0 : Fin 1)))) * w (ix2 k (i 1))

/-- The normalisation as one function of the three arrays the region reads. -/
def normalised (a : S50000x128.Idx → EReal) (d : S50000x1.Idx → EReal) (b : S1x128.Idx → EReal) : S50000x128.Idx → EReal :=
  fun i => a (ix2 (i 0) (i 1)) * Ideal.rsqrt (d (ix2 (i 0) (0 : Fin 1))) + b (ix2 (0 : Fin 1) (i 1))

/-! ## The projection region -/

/-- The printed index maps over the 25 points: the row-blocked windows sit at block t, the weights at block 0. -/
theorem project_index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every row block is some point's. -/
theorem project_onto : ∀ q0 : Fin 25, ∃ t : Fin cfg0.N, win0_3.index t = ![q0.val, 0] :=
  (by decide +kernel : ∀ q0 : Fin 25, ∃ t : Fin grid0.N, win0_3.index t = ![q0.val, 0])

/-- An entry of the body's block is the entry of 'projected' under it, once the three loaded blocks are known to be the
    matching pieces of three whole arrays. -/
theorem project_entry (x0 : Vec Ideal S2000x256 .f32) (x1 : Vec Ideal S2000x1 .f32) (x2 : Vec Ideal S256x128 .bf16)
    (X : S50000x256.Idx → EReal) (D : S50000x1.Idx → EReal) (W : S256x128.Idx → EReal)
    (j : S2000x128.Idx) (i : S50000x128.Idx)
    (h0 : ∀ k : Fin 256, x0 (ix2 (j 0) k) = X (ix2 (i 0) k))
    (h1 : x1 (ix2 (j 0) (0 : Fin 1)) = D (ix2 (i 0) (0 : Fin 1)))
    (h2 : ∀ k : Fin 256, x2 (ix2 k (j 1)) = W (ix2 k (i 1))) :
    k0_pay1 (F := Ideal) x0 x1 x2 j = projected X D W i := by
  obtain ⟨p, q, rfl⟩ : ∃ (p : Fin 2000) (q : Fin 128), j = ix2 p q := ⟨j 0, j 1, eq_ix2 j⟩
  rw [project_block_apply]
  unfold projected
  refine Finset.sum_congr rfl fun k _ => ?_
  rw [← h1, ← h0 k, ← h2 k]

/-- What point t writes back is block t of 'projected' of the arrays as the region finds them. -/
theorem project_flushed (c : Dev nD) (t : Fin cfg0.N) :
    (dat0 V c).flushed 3 t = ((cfg0.win 3).blk t).view.read (Elt Ideal) (projected (V c main_arg0) (V c main_v12) (V c main_v11)) := by
  show (cfg0.win 3).cut (grid0.coords t) ((dat0 V c).after 3 t) = _
  rw [after0_3]
  unfold out0_3
  rw [View.canon_unit_zero zero_offsets]
  simp only [View.ld_unit_zero (S := S2000x256) zero_offsets, View.ld_unit_zero (S := S2000x1) zero_offsets, View.ld_unit_zero (S := S256x128) zero_offsets]
  obtain ⟨e00, e01, e10, e11, e20, e21, e30, e31⟩ := project_index_maps t
  funext j
  show k0_pay1 (iblk0 V c 0 t) (iblk0 V c 1 t) (iblk0 V c 2 t) j
    = projected (V c main_arg0) (V c main_v12) (V c main_v11) (((cfg0.win 3).blk t).view.emb j)
  have hj0 : (j 0).val < 2000 := (j 0).isLt
  have hj1 : (j 1).val < 128 := (j 1).isLt
  refine project_entry _ _ _ _ _ _ j _ (fun k => ?_) ?_ (fun k => ?_)
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 256 + 1 * k.val = k.val; omega
  · show V c main_v12 (((cfg0.win 1).blk t).view.emb (ix2 (j 0) (0 : Fin 1))) = V c main_v12 (ix2 ((((cfg0.win 3).blk t).view.emb j) 0) (0 : Fin 1))
    refine congrArg (V c main_v12) (funext fun a => Fin.ext ?_)
    match a with
    | ⟨0, _⟩ => show win0_1.index t (0 : Fin 2) * 2000 + 1 * (j 0).val = win0_3.index t (0 : Fin 2) * 2000 + 1 * (j 0).val; omega
    | ⟨1, _⟩ => show win0_1.index t (1 : Fin 2) * 1 + 1 * 0 = 0; omega
  · show V c main_v11 (((cfg0.win 2).blk t).view.emb (ix2 k (j 1))) = V c main_v11 (ix2 k ((((cfg0.win 3).blk t).view.emb j) 1))
    refine congrArg (V c main_v11) (funext fun a => Fin.ext ?_)
    match a with
    | ⟨0, _⟩ => show win0_2.index t (0 : Fin 2) * 256 + 1 * k.val = k.val; omega
    | ⟨1, _⟩ => show win0_2.index t (1 : Fin 2) * 128 + 1 * (j 1).val = win0_3.index t (1 : Fin 2) * 128 + 1 * (j 1).val; omega

/-- An index of the result is in point t's block iff each coordinate is in the block's range on its axis. -/
theorem project_mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v13).slice (win0_3.rect t)).set ↔ _
  rw [View.set_slice_whole, Rect.mem_set_unit]
  exact Iff.rfl

/-- The 25 row blocks cover the result: row r is in block r / 2000. -/
theorem project_cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := project_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [project_mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The projected rows after the region: 'projected' of the three arrays the region was entered with. -/
theorem project_final (c : Dev nD) :
    (dat0 V c).arrAt 3 cfg0.N = projected (V c main_arg0) (V c main_v12) (V c main_v11) :=
  (dat0 V c).arrAt_eq_of_cover 3 _ (fun t _ => project_flushed V c t) project_cover

/-! ## The normalising region -/

/-- The printed index maps over the 25 points: the row-blocked windows sit at block t, the bias at block 0. -/
theorem norm_index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block is some point's. -/
theorem norm_onto : ∀ q0 : Fin 25, ∃ t : Fin cfg1.N, win1_3.index t = ![q0.val, 0] :=
  (by decide +kernel : ∀ q0 : Fin 25, ∃ t : Fin grid1.N, win1_3.index t = ![q0.val, 0])

/-- An entry of the body's block is the entry of 'normalised' under it, once the three loaded blocks are known to be the
    matching pieces of three whole arrays. -/
theorem norm_entry (x0 : Vec Ideal S2000x128 .f32) (x1 : Vec Ideal S2000x1 .f32) (x2 : Vec Ideal S1x128 .f32)
    (A : S50000x128.Idx → EReal) (D : S50000x1.Idx → EReal) (B : S1x128.Idx → EReal)
    (j : S2000x128.Idx) (i : S50000x128.Idx)
    (h0 : x0 (ix2 (j 0) (j 1)) = A (ix2 (i 0) (i 1)))
    (h1 : x1 (ix2 (j 0) (0 : Fin 1)) = D (ix2 (i 0) (0 : Fin 1)))
    (h2 : x2 (ix2 (0 : Fin 1) (j 1)) = B (ix2 (0 : Fin 1) (i 1))) :
    k1_pay1 (F := Ideal) x0 x1 x2 j = normalised A D B i := by
  obtain ⟨p, q, rfl⟩ : ∃ (p : Fin 2000) (q : Fin 128), j = ix2 p q := ⟨j 0, j 1, eq_ix2 j⟩
  rw [norm_block_apply]
  unfold normalised
  rw [← h0, ← h1, ← h2]

/-- What point t writes back is block t of 'normalised' of the arrays as the region finds them. -/
theorem norm_flushed (c : Dev nD) (t : Fin cfg1.N) :
    (dat1 V c).flushed 3 t = ((cfg1.win 3).blk t).view.read (Elt Ideal) (normalised (V c main_v27) (V c main_v28) (V c main_v29)) := by
  show (cfg1.win 3).cut (grid1.coords t) ((dat1 V c).after 3 t) = _
  rw [after1_3]
  unfold out1_3
  rw [View.canon_unit_zero zero_offsets]
  simp only [View.ld_unit_zero (S := S2000x128) zero_offsets, View.ld_unit_zero (S := S2000x1) zero_offsets, View.ld_unit_zero (S := S1x128) zero_offsets]
  obtain ⟨e00, e01, e10, e11, e20, e21, e30, e31⟩ := norm_index_maps t
  funext j
  show k1_pay1 (iblk1 V c 0 t) (iblk1 V c 1 t) (iblk1 V c 2 t) j
    = normalised (V c main_v27) (V c main_v28) (V c main_v29) (((cfg1.win 3).blk t).view.emb j)
  have hj0 : (j 0).val < 2000 := (j 0).isLt
  have hj1 : (j 1).val < 128 := (j 1).isLt
  refine norm_entry _ _ _ _ _ _ j _ ?_ ?_ ?_
  · show V c main_v27 (((cfg1.win 0).blk t).view.emb (ix2 (j 0) (j 1))) = V c main_v27 (ix2 ((((cfg1.win 3).blk t).view.emb j) 0) ((((cfg1.win 3).blk t).view.emb j) 1))
    refine congrArg (V c main_v27) (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * (j 1).val = win1_3.index t (1 : Fin 2) * 128 + 1 * (j 1).val; omega
  · show V c main_v28 (((cfg1.win 1).blk t).view.emb (ix2 (j 0) (0 : Fin 1))) = V c main_v28 (ix2 ((((cfg1.win 3).blk t).view.emb j) 0) (0 : Fin 1))
    refine congrArg (V c main_v28) (funext fun a => Fin.ext ?_)
    match a with
    | ⟨0, _⟩ => show win1_1.index t (0 : Fin 2) * 2000 + 1 * (j 0).val = win1_3.index t (0 : Fin 2) * 2000 + 1 * (j 0).val; omega
    | ⟨1, _⟩ => show win1_1.index t (1 : Fin 2) * 1 + 1 * 0 = 0; omega
  · show V c main_v29 (((cfg1.win 2).blk t).view.emb (ix2 (0 : Fin 1) (j 1))) = V c main_v29 (ix2 (0 : Fin 1) ((((cfg1.win 3).blk t).view.emb j) 1))
    refine congrArg (V c main_v29) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the result is in point t's block iff each coordinate is in the block's range on its axis. -/
theorem norm_mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v30).slice (win1_3.rect t)).set ↔ _
  rw [View.set_slice_whole, Rect.mem_set_unit]
  exact Iff.rfl

/-- The 25 row blocks cover the result: row r is in block r / 2000. -/
theorem norm_cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := norm_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [norm_mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The result after the region: 'normalised' of the three arrays the region was entered with. -/
theorem norm_final (c : Dev nD) :
    (dat1 V c).arrAt 3 cfg1.N = normalised (V c main_v27) (V c main_v28) (V c main_v29) :=
  (dat1 V c).arrAt_eq_of_cover 3 _ (fun t _ => norm_flushed V c t) norm_cover

end Cert.KernelIdeal.Blockwise

end
-- ==== Proof.Bridge.lean ====
/-
  The reference's stages are the two whole-array functions of the kernel's regions.

  The reference scales x by the rsqrt of the out-degrees broadcast along the features and multiplies by the weights in
  one product: entry (r, q) is the sum over k of (x(r,k) · rsqrt(deg r)) · W(k,q), term for term what the projection
  region leaves ('projected'), the kernel holding the degrees as a column.  At the end it multiplies the aggregated rows
  by the rsqrt of the in-degrees broadcast along the features and adds the bias broadcast over the rows: entry (r, q) is
  agg(r,q) · rsqrt(deg r) + b(q), what the normalising region leaves ('normalised'), the kernel holding the degrees as a
  column and the bias as a row.  No algebraic law is needed beyond reading each layout operation at an index.
-/
import proofs.«141615_j66383014527134_1_alg».proof.Proof.Blocks
import proofs.«141615_j66383014527134_1_alg».proof.Proof.Gen.ReferenceIdeal.Read
import proofs.«141615_j66383014527134_1_alg».proof.Proof.LibKeepdims
import Idealize.ShloMosaic.Lib.ValueLayout

noncomputable section

namespace Cert.ReferenceIdeal.Stages

open Cert.ReferenceIdeal Cert.ReferenceIdeal.Read Idealize.ShloMosaic Idealize.ShloMosaic.ValueIdx
open Cert.KernelIdeal.Blockwise (projected normalised)

/-- The left operand's index of the reference's product at output (r, q) and feature k. -/
theorem lidx_eq (r : Fin 50000) (q : Fin 128) (k : Fin 256) : lidx_main_v15 (ix2 r q) k = ix2 r k :=
  funext fun a => Fin.ext (by match a with | ⟨0, _⟩ => rfl | ⟨1, _⟩ => rfl)

/-- The right operand's index there. -/
theorem ridx_eq (r : Fin 50000) (q : Fin 128) (k : Fin 256) : ridx_main_v15 (ix2 r q) k = ix2 k q :=
  funext fun a => Fin.ext (by match a with | ⟨0, _⟩ => rfl | ⟨1, _⟩ => rfl)

/-- The out-degree an entry (r, k) of the scaled x reads, through the two broadcasts. -/
theorem deg_idx_x (r : Fin 50000) (k : Fin 256) : idx_main_v12 (idx_main_v13 (ix2 r k)) = ix1 r :=
  funext fun a => Fin.ext (by match a with | ⟨0, _⟩ => rfl)

/-- The in-degree an entry (r, q) of the result reads, through the two broadcasts. -/
theorem deg_idx_out (r : Fin 50000) (q : Fin 128) : idx_main_v30 (idx_main_v31 (ix2 r q)) = ix1 r :=
  funext fun a => Fin.ext (by match a with | ⟨0, _⟩ => rfl)

/-- The bias entry an entry (r, q) of the result reads, through the two broadcasts. -/
theorem bias_idx_out (r : Fin 50000) (q : Fin 128) : idx_main_v33 (idx_main_v34 (ix2 r q)) = ix1 q :=
  funext fun a => Fin.ext (by match a with | ⟨0, _⟩ => rfl)

/-- The reference's projected rows are 'projected' of x, the out-degrees as a column, and the weights. -/
theorem projected_eq (x0 : S50000x256.Idx → EReal) (x2 : S256x128.Idx → EReal) (x4 : S800000.Idx → BitVec 32)
    (h : (⟨1, ![50000]⟩ : Shape).ShapeCasts ⟨2, ![50000, 1]⟩) :
    projected x0 (shapeCast ⟨2, ![50000, 1]⟩ (val_main_v5 (F := Ideal) x4) h) x2 = val_main_v15 (F := Ideal) x0 x2 x4 := by
  funext i
  obtain ⟨r, q, rfl⟩ : ∃ (r : Fin 50000) (q : Fin 128), i = ix2 r q := ⟨i 0, i 1, eq_ix2 i⟩
  rw [val_main_v15_apply]
  show ∑ k : Fin 256, (x0 (ix2 r k) * Ideal.rsqrt (shapeCast ⟨2, ![50000, 1]⟩ (val_main_v5 (F := Ideal) x4) h (ix2 r (0 : Fin 1)))) * x2 (ix2 k q) = _
  refine Finset.sum_congr rfl fun k _ => ?_
  rw [lidx_eq, ridx_eq, val_main_v14_apply, val_main_v13_apply, val_main_v12_apply, val_main_v11_apply, deg_idx_x,
    shapeCast_a_a1_apply]
  simp only [Ideal.mulf_def, Ideal.hostUnary_rsqrt_def]

/-- The reference's result is 'normalised' of the aggregated rows, the in-degrees as a column, and the bias as a row. -/
theorem normalised_eq (x0 : S50000x256.Idx → EReal) (x1 : S800000.Idx → EReal) (x2 : S256x128.Idx → EReal) (x3 : S128.Idx → EReal)
    (x4 x5 : S800000.Idx → BitVec 32)
    (h : (⟨1, ![50000]⟩ : Shape).ShapeCasts ⟨2, ![50000, 1]⟩) (h' : (⟨1, ![128]⟩ : Shape).ShapeCasts ⟨2, ![1, 128]⟩) :
    normalised (val_main_v28 (F := Ideal) x0 x1 x2 x4 x5) (shapeCast ⟨2, ![50000, 1]⟩ (val_main_v10 (F := Ideal) x5) h)
        (shapeCast ⟨2, ![1, 128]⟩ x3 h')
      = val_main_v35 (F := Ideal) x0 x1 x2 x3 x4 x5 := by
  funext i
  obtain ⟨r, q, rfl⟩ : ∃ (r : Fin 50000) (q : Fin 128), i = ix2 r q := ⟨i 0, i 1, eq_ix2 i⟩
  rw [val_main_v35_apply, val_main_v32_apply, val_main_v31_apply, val_main_v30_apply, val_main_v29_apply,
    val_main_v34_apply, val_main_v33_apply, deg_idx_out, bias_idx_out]
  show val_main_v28 (F := Ideal) x0 x1 x2 x4 x5 (ix2 r q)
      * Ideal.rsqrt (shapeCast ⟨2, ![50000, 1]⟩ (val_main_v10 (F := Ideal) x5) h (ix2 r (0 : Fin 1)))
      + shapeCast ⟨2, ![1, 128]⟩ x3 h' (ix2 (0 : Fin 1) q) = _
  rw [shapeCast_a_a1_apply, shapeCast_a_1a_apply]
  simp only [Ideal.mulf_def, Ideal.addf_def, Ideal.hostUnary_rsqrt_def]

end Cert.ReferenceIdeal.Stages

end
-- ==== Proof.Boundary.lean ====
/-
  The contents of the kernel's buffers at the segment boundaries, followed from the launch to the result.

  Before the projection region the host operations have left x untouched, the weights converted to bf16 (the same
  extended reals) and the out-degrees (the number of edges leaving each node, or 1 if there is none) as a column.
  So the region leaves the reference's projected rows.  Between the regions the host operations gather those rows
  along the edges' sources (a negative index wrapped once, then clamped), weight each by its edge and sum them into the
  edges' destinations: the same operations, on the same arrays, as the reference's, the one extra change of float
  format being the identity.  They also lay the in-degrees out as a column and the bias as a row, and the normalising
  region leaves the reference's result.
-/
import proofs.«141615_j66383014527134_1_alg».proof.Proof.Gen.KernelIdeal.Frame
import proofs.«141615_j66383014527134_1_alg».proof.Proof.Blocks
import proofs.«141615_j66383014527134_1_alg».proof.Proof.Bridge
import Idealize.ShloMosaic.Lib.StableHlo.Run

set_option maxRecDepth 16384

noncomputable section

namespace Cert.KernelIdeal.Boundary

open Cert.KernelIdeal Cert.KernelIdeal.Gen Idealize.ShloMosaic Idealize.ShloMosaic.TcCoe Idealize.ShloMosaic.StableHlo
open Idealize.SL.Sem
open Cert.KernelIdeal.Blockwise Cert.ReferenceIdeal.Read Cert.ReferenceIdeal.Stages

variable (m : (ℓ : Loc nD τ sig) → Buf (Elt Ideal) ℓ) (ρ : Dev nD → PrngReg)

/-! ## At the projection region's entry -/

/-- x is as launched. -/
theorem entry0_x (c : Dev nD) : V1 m ρ c main_arg0 = m ((c : Thread nD τ).loc main_arg0) := by
  show StableHlo.after hostOps0 (W0 m ρ c) (Proc.devRef .tc main_arg0) = _
  after_results

/-- The bf16 weights are the weights. -/
theorem entry0_w (c : Dev nD) : V1 m ρ c main_v11 = m ((c : Thread nD τ).loc main_arg2) := by
  show StableHlo.after hostOps0 (W0 m ρ c) (Proc.devRef .tc main_v11) = _
  after_results
  rfl

/-- The degree column is the reference's out-degrees, reshaped. -/
theorem entry0_deg (c : Dev nD) :
    V1 m ρ c main_v12 = shapeCast S50000x1 (val_main_v5 (F := Ideal) (m ((c : Thread nD τ).loc main_arg4))) shapeCasts_S50000_S50000x1 := by
  show StableHlo.after hostOps0 (W0 m ρ c) (Proc.devRef .tc main_v12) = _
  after_results
  rfl

/-! ## Between the regions -/

/-- The projected rows the first region leaves are the reference's. -/
theorem mid_h (c : Dev nD) :
    W2 m ρ c (Proc.devRef .tc main_v13)
      = val_main_v15 (F := Ideal) (m ((c : Thread nD τ).loc main_arg0)) (m ((c : Thread nD τ).loc main_arg2)) (m ((c : Thread nD τ).loc main_arg4)) := by
  refine (W2_arr m ρ c 3).trans ((project_final (V1 m ρ) c).trans ?_)
  rw [entry0_x, entry0_w, entry0_deg]
  exact projected_eq _ _ _ _

/-- The first region writes none of the arguments, and no host operation before it does. -/
theorem mid_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results
theorem mid_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results
theorem mid_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results
theorem mid_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

/-- The in-degrees the first stretch computed are the reference's, and the first region leaves them alone. -/
theorem mid_indeg (c : Dev nD) :
    W2 m ρ c (Proc.devRef .tc main_v10) = val_main_v10 (F := Ideal) (m ((c : Thread nD τ).loc main_arg5)) := by
  refine (W2_of_ne m ρ c main_v10 (by decide)).trans ?_
  show StableHlo.after hostOps0 (W0 m ρ c) (Proc.devRef .tc main_v10) = _
  after_results
  rfl

/-! ## At the normalising region's entry -/

set_option maxHeartbeats 2000000 in
/-- The aggregated rows are the reference's: the same gather, weighting and accumulating scatter of the same rows. -/
theorem entry1_agg (c : Dev nD) :
    V3 m ρ c main_v27 = val_main_v28 (F := Ideal) (m ((c : Thread nD τ).loc main_arg0)) (m ((c : Thread nD τ).loc main_arg1))
      (m ((c : Thread nD τ).loc main_arg2)) (m ((c : Thread nD τ).loc main_arg4)) (m ((c : Thread nD τ).loc main_arg5)) := by
  show StableHlo.after hostOps1 (W2 m ρ c) (Proc.devRef .tc main_v27) = _
  after_results
  rw [mid_h, mid_arg1, mid_arg4, mid_arg5]
  rfl

/-- The degree column is the reference's in-degrees, reshaped. -/
theorem entry1_deg (c : Dev nD) :
    V3 m ρ c main_v28 = shapeCast S50000x1 (val_main_v10 (F := Ideal) (m ((c : Thread nD τ).loc main_arg5))) shapeCasts_S50000_S50000x1 := by
  show StableHlo.after hostOps1 (W2 m ρ c) (Proc.devRef .tc main_v28) = _
  after_results
  rw [mid_indeg]
  rfl

/-- The bias row is the bias, reshaped. -/
theorem entry1_bias (c : Dev nD) :
    V3 m ρ c main_v29 = shapeCast S1x128 (m ((c : Thread nD τ).loc main_arg3)) shapeCasts_S128_S1x128 := by
  show StableHlo.after hostOps1 (W2 m ρ c) (Proc.devRef .tc main_v29) = _
  after_results
  rw [mid_arg3]
  rfl

/-! ## The result -/

/-- The result buffer ends at the reference's last stage of the launch contents of the six arguments. -/
theorem result_eq (c : Dev nD) :
    W4 m ρ c (Proc.devRef .tc main_v30)
      = val_main_v35 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (W4_arr m ρ c 3).trans ((norm_final (V3 m ρ) c).trans ?_)
  rw [entry1_agg, entry1_deg, entry1_bias]
  exact normalised_eq _ _ _ _ _ _ _ _

end Cert.KernelIdeal.Boundary

end
-- ==== Proof.lean ====
/-
  A graph convolution with both-sided degree normalisation and scalar edge weights, N = 50000 nodes, E = 800000 edges,
  256 input and 128 output features:

      out = segment_sum( ((x · rsqrt(out_deg)) W)[src] · ew , dst ) · rsqrt(in_deg) + b.

  The kernel computes the projection (x · rsqrt(out_deg)) W in a Pallas region of 25 row blocks with bf16 operands, leaves
  the gather along the edges and the accumulating scatter to the host, and applies · rsqrt(in_deg) + b in a second
  Pallas region of 25 row blocks; the reference is plain jnp.  On the extended reals a change of float format is the
  identity and a matrix product into a zero accumulator is the host's product, so:

    * the first region leaves, entry by entry, the sum over the features of (x(r,k) · rsqrt(deg r)) · W(k,q) — the
      reference's product of the scaled x with W, term for term (Payloads, Blocks, Bridge);
    * the host operations between the regions are the reference's own, on equal arrays (Boundary);
    * the second region leaves agg(r,q) · rsqrt(deg r) + b(q) — the reference's last three lines (Blocks, Bridge).

  No law of arithmetic beyond reading each operation at an index is used, so the finiteness of the inputs is never
  opened.  The frames of the two kernel programs are the generated ones; the reference's frame is its generated run with the
  result dropped; the ideal pass rewrote nothing, so there is nothing to preserve.
-/
import proofs.«141615_j66383014527134_1_alg».proof.Defs
import proofs.«141615_j66383014527134_1_alg».proof.Proof.Gen.Kernel
import proofs.«141615_j66383014527134_1_alg».proof.Proof.Gen.Kernel.Skeleton
import proofs.«141615_j66383014527134_1_alg».proof.Proof.Gen.Kernel.Launch
import proofs.«141615_j66383014527134_1_alg».proof.Proof.Gen.Kernel.Points
import proofs.«141615_j66383014527134_1_alg».proof.Proof.Gen.Kernel.Frame
import proofs.«141615_j66383014527134_1_alg».proof.Proof.Gen.KernelIdeal
import proofs.«141615_j66383014527134_1_alg».proof.Proof.Gen.KernelIdeal.Skeleton
import proofs.«141615_j66383014527134_1_alg».proof.Proof.Gen.KernelIdeal.Launch
import proofs.«141615_j66383014527134_1_alg».proof.Proof.Gen.KernelIdeal.Points
import proofs.«141615_j66383014527134_1_alg».proof.Proof.Gen.KernelIdeal.Frame
import proofs.«141615_j66383014527134_1_alg».proof.Proof.Gen.ReferenceIdeal
import proofs.«141615_j66383014527134_1_alg».proof.Proof.Gen.ReferenceIdeal.Run
import proofs.«141615_j66383014527134_1_alg».proof.Proof.Gen.ReferenceIdeal.Read
import proofs.«141615_j66383014527134_1_alg».proof.Proof.Gen.Pre_finite_inputs
import proofs.«141615_j66383014527134_1_alg».proof.Proof.KernelRun
import proofs.«141615_j66383014527134_1_alg».proof.Proof.Boundary
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the result at the reference's last stage of the (equal) argument arrays. -/
theorem algebraic : Cert.algebraic_KernelIdeal_ReferenceIdeal := by
  intro m ρ m' ρ' _ hagree
  refine ⟨fun c => Cert.ReferenceIdeal.Read.val_main_v35 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundary.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
